-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x2048x2048 : Shape := ⟨3, ![8, 2048, 2048]⟩
abbrev S256x256 : Shape := ⟨2, ![256, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S8x2048x256 .f32) (main_arg1 : FVec F S8x2048x2048 .f32) (main_arg2 : FVec F S256x256 .f32) (main_arg3 : FVec F S256x256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S8x2048x256 : Shape := ⟨3, ![8, 2048, 256]⟩
abbrev S8x2048x2048 : Shape := ⟨3, ![8, 2048, 2048]⟩
abbrev S256x256 : Shape := ⟨2, ![256, 256]⟩
abbrev S1x2048x256 : Shape := ⟨3, ![1, 2048, 256]⟩
abbrev S2048x256 : Shape := ⟨2, ![2048, 256]⟩
abbrev S1x1024x256 : Shape := ⟨3, ![1, 1024, 256]⟩
abbrev S1x1024x1024 : Shape := ⟨3, ![1, 1024, 1024]⟩
abbrev S1024x256 : Shape := ⟨2, ![1024, 256]⟩
abbrev S1024x1024 : Shape := ⟨2, ![1024, 1024]⟩

abbrev nBuf : Space → Nat
  | .hbm => 7
  | .vmem => 16
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S256x256, .f32⟩
  | .hbm, ⟨3, _⟩ => ⟨S256x256, .f32⟩
  | .hbm, ⟨4, _⟩ => ⟨S8x2048x256, .bf16⟩
  | .hbm, ⟨5, _⟩ => ⟨S8x2048x256, .bf16⟩
  | .hbm, ⟨6, _⟩ => ⟨S8x2048x2048, .f32⟩
  | .local _ .vmem, ⟨0, _⟩ => ⟨S1x2048x256, .f32⟩
  | .local _ .vmem, ⟨1, _⟩ => ⟨S1x2048x256, .f32⟩
  | .local _ .vmem, ⟨2, _⟩ => ⟨S256x256, .f32⟩
  | .local _ .vmem, ⟨3, _⟩ => ⟨S256x256, .f32⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1x1024x1024, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![8, 2, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S2048x256_S1x2048x256 : S2048x256.ShapeCasts S1x2048x256
  packedbf16_S1x2048x256_S1x2048x256_0_0_0 : (Rect.unit (s := S1x2048x256) ![0, 0, 0] S1x2048x256.size inb_S1x2048x256_S1x2048x256_0_0_0).PackedRows (EltTy.packing .bf16)
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S2048x256_S256x256_S2048x256_1_1_0_0_n_n_wf : DotDims.WF S2048x256 S256x256 S2048x256 [1] [1] [0] [0] [] []
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S8x2048x256.size a
  hwx0_3 : ∀ i : grid0.Coords, EltTy.bits .bf16 = 32 ∨ (Rect.block (s := S8x2048x256) S1x2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x256.size a ≤ S8x2048x256.size a
  hwx0_4 : ∀ i : grid0.Coords, EltTy.bits .bf16 = 32 ∨ (Rect.block (s := S8x2048x256) S1x2048x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S8x2048x256.size a
  hwx1_0 : ∀ i : grid1.Coords, EltTy.bits .bf16 = 32 ∨ (Rect.block (s := S8x2048x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x256.size a ≤ S8x2048x256.size a
  hwx1_1 : ∀ i : grid1.Coords, EltTy.bits .bf16 = 32 ∨ (Rect.block (s := S8x2048x256) S1x1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S8x2048x2048.size a
  hwx1_2 : ∀ i : grid1.Coords, EltTy.bits .f32 = 32 ∨ (Rect.block (s := S8x2048x2048) S1x1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S8x2048x2048.size a
  hwx1_3 : ∀ i : grid1.Coords, EltTy.bits .f32 = 32 ∨ (Rect.block (s := S8x2048x2048) S1x1024x1024.size (cc1_transform_3 i) (hinb1_3 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x2048x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S256x256 : Shape := ⟨2, ![256, 256]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S256x256, .f32⟩
  | .hbm, ⟨3, _⟩ => ⟨S256x256, .f32⟩
  | .hbm, ⟨4, _⟩ => ⟨S8x2048x256, .f32⟩
  | .hbm, ⟨5, _⟩ => ⟨S8x2048x256, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  dot_S8x2048x256_S256x256_S8x2048x256_2_1_01_0_n_n_wf : DotDims.WF S8x2048x256 S256x256 S8x2048x256 [2] [1] [0, 1] [0] [] []
  dot_S8x2048x256_S8x2048x256_S8x2048x2048_2_2_1_1_0_0_wf : DotDims.WF S8x2048x256 S8x2048x256 S8x2048x2048 [2] [2] [1] [1] [0] [0]

variable [Facts₀]

def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf

class Facts : Prop extends Facts₀ where

variable [Facts]
-- ==== Proof.Spec.lean ====
/-
  The function both programs compute, on the extended reals, over the literal shapes: batches of 2048 feature rows of
  width 256 (8 batches), two 256×256 weight matrices, and a batch of 2048×2048 pairwise distances.

  * `proj v W b n o = Σ_f v[b,n,f] · W[o,f]`: row `n` of batch `b` against row `o` of the weights (a linear layer without
    bias, weights stored output-major).
  * `score p q b n m = Σ_o p[b,n,o] · q[b,m,o]`: the inner product of row `n` of one projection with row `m` of the other.
  * `width s = σ(s) · 100 + 1e-5`, with `σ(s) = 1 / (1 + e^(−s))` the logistic function, and
    `weight s a = exp (−(a · a · (1 / (2 · width s · width s))))`: a Gaussian of the distance `a` whose width the score sets.
  * `normAdj p q adj` applies `weight` entry by entry, and `result` composes the three.

  Nothing here needs the entries to be finite: sums and products are only regrouped the same way on both sides, never
  distributed. The float constants stay as their binary words (the same word is never evaluated); the one word that must be
  read is `1.0`, because the logistic function is spelt with the number one.
-/
import Idealize.ShloMosaic.PureOps.Ideal
import Idealize.ShloMosaic.PureOps.Ideal.Laws
import Idealize.ShloMosaic.Lib.ValueIdx

noncomputable section

namespace Cert.GaussAdj

open Idealize.ShloMosaic Idealize.ShloMosaic.ValueIdx

/-- Feature rows: 8 batches of 2048 rows of width 256. -/
abbrev Feat : Shape := ⟨3, ![8, 2048, 256]⟩
/-- Pairwise entries: 8 batches of 2048 × 2048. -/
abbrev Pair : Shape := ⟨3, ![8, 2048, 2048]⟩
/-- A weight matrix, output-major: 256 × 256. -/
abbrev Wt : Shape := ⟨2, ![256, 256]⟩

/-- Row `n` of batch `b` against row `o` of the weights. -/
def proj (v : Feat.Idx → EReal) (W : Wt.Idx → EReal) (b : Fin 8) (n : Fin 2048) (o : Fin 256) : EReal :=
  ∑ f : Fin 256, v (ix3 b n f) * W (ix2 o f)

/-- The projected rows as an array. -/
def projArr (v : Feat.Idx → EReal) (W : Wt.Idx → EReal) : Feat.Idx → EReal :=
  fun i => proj v W (i 0) (i 1) (i 2)

theorem projArr_ix3 (v : Feat.Idx → EReal) (W : Wt.Idx → EReal) (b : Fin 8) (n : Fin 2048) (o : Fin 256) :
    projArr v W (ix3 b n o) = proj v W b n o := rfl

/-- Row `n` of `p` against row `m` of `q`, in batch `b`. -/
def score (p q : Feat.Idx → EReal) (b : Fin 8) (n m : Fin 2048) : EReal :=
  ∑ o : Fin 256, p (ix3 b n o) * q (ix3 b m o)

/-- The Gaussian's width from a score: `σ(s) · 100 + 1e-5`. -/
def width (s : EReal) : EReal :=
  Ideal.logistic s * Ideal.ofBits .f32 0x42C80000#32 + Ideal.ofBits .f32 0x3727C5AC#32

/-- The weight of a distance `a` under the width a score `s` sets: `exp (−(a² · (1 / (2 · width² ))))`. -/
def weight (s a : EReal) : EReal :=
  Ideal.exp (-((a * a) * Ideal.div 1 ((Ideal.ofBits .f32 0x40000000#32 * width s) * width s)))

/-- Every pairwise distance reweighted by the score of its two rows. -/
def normAdj (p q : Feat.Idx → EReal) (adj : Pair.Idx → EReal) : Pair.Idx → EReal :=
  fun i => weight (score p q (i 0) (i 1) (i 2)) (adj i)

/-- The whole computation from the four arguments. -/
def result (v : Feat.Idx → EReal) (adj : Pair.Idx → EReal) (W1 W2 : Wt.Idx → EReal) : Pair.Idx → EReal :=
  normAdj (projArr v W1) (projArr v W2) adj

/-- The word `0x3F800000` is the number one. -/
theorem one_f32 : Ideal.ofBits .f32 0x3F800000#32 = 1 := by
  simp [Ideal.ofBits, Ideal.ieee, -EReal.coe_mul]
  norm_num

/-- Subtracting from zero is negation, at infinities too. -/
theorem zero_sub' (x : EReal) : (0 : EReal) - x = -x := by
  rw [sub_eq_add_neg, zero_add]

end Cert.GaussAdj

end
-- ==== Proof.RefSpec.lean ====
/-
  The reference computes `GaussAdj.result`: its last stage, read one operation at a time at an index, is the
  specification at that index.

  The reference spells the logistic function out — one over one plus the exponential of the negated score — which is
  what the logistic function is on the extended reals, once its two `1.0` words are read as the number one. Its two
  projections are sums over the feature axis and its scores a sum over the projected axis; the index each factor is read at
  is named coordinate by coordinate (`row_*`, `col_*` below) so that both sums become the specification's.
-/
import proofs.«100648_j11467562680485_1_alg».proof.Proof.Gen.ReferenceIdeal.Read
import proofs.«100648_j11467562680485_1_alg».proof.Proof.Spec

noncomputable section

namespace Cert.GaussAdj.Ref

open Idealize.ShloMosaic Idealize.ShloMosaic.ValueIdx Cert.ReferenceIdeal Cert.ReferenceIdeal.Read Cert.GaussAdj

/-- The first projection's left factor for output entry `(b, n, m)`, projected column `o`, feature `f`: `v[b, n, f]`. -/
theorem row_left (i : Pair.Idx) (o f : Fin 256) : lidx_main_v0 (lidx_main_v2 i o) f = ix3 (i 0) (i 1) f :=
  funext fun a => Fin.ext (by match a with | ⟨0, _⟩ => rfl | ⟨1, _⟩ => rfl | ⟨2, _⟩ => rfl)

/-- Its right factor: `W1[o, f]`. -/
theorem col_left (i : Pair.Idx) (o f : Fin 256) : ridx_main_v0 (lidx_main_v2 i o) f = ix2 o f :=
  funext fun a => Fin.ext (by match a with | ⟨0, _⟩ => rfl | ⟨1, _⟩ => rfl)

/-- The second projection's left factor: `v[b, m, f]`. -/
theorem row_right (i : Pair.Idx) (o f : Fin 256) : lidx_main_v1 (ridx_main_v2 i o) f = ix3 (i 0) (i 2) f :=
  funext fun a => Fin.ext (by match a with | ⟨0, _⟩ => rfl | ⟨1, _⟩ => rfl | ⟨2, _⟩ => rfl)

/-- Its right factor: `W2[o, f]`. -/
theorem col_right (i : Pair.Idx) (o f : Fin 256) : ridx_main_v1 (ridx_main_v2 i o) f = ix2 o f :=
  funext fun a => Fin.ext (by match a with | ⟨0, _⟩ => rfl | ⟨1, _⟩ => rfl)

/-- The reference's score stage is the specification's score of the two projections. -/
theorem score_eq (v : Feat.Idx → EReal) (W1 W2 : Wt.Idx → EReal) (i : Pair.Idx) :
    val_main_v2 (F := Ideal) v W1 W2 i = score (projArr v W1) (projArr v W2) (i 0) (i 1) (i 2) := by
  rw [val_main_v2_apply]
  unfold score
  refine Finset.sum_congr rfl fun o _ => ?_
  rw [val_main_v0_apply, val_main_v1_apply]
  show _ = proj v W1 (i 0) (i 1) o * proj v W2 (i 0) (i 2) o
  unfold proj
  simp only [row_left, col_left, row_right, col_right]
  rfl

/-- The reference's result is the specification, entry by entry. -/
theorem result_eq (v : Feat.Idx → EReal) (adj : Pair.Idx → EReal) (W1 W2 : Wt.Idx → EReal) :
    val_main_v21 (F := Ideal) v adj W1 W2 = result v adj W1 W2 := by
  funext i
  rw [val_main_v21_apply, val_main_v20_apply, val_main_v19_apply, val_main_v18_apply, val_main_v17_apply,
    val_main_v16_apply, val_main_cst_4_apply, val_main_v15_apply, val_main_v14_apply, val_main_v13_apply,
    val_main_cst_3_apply, val_main_v12_apply, val_main_v11_apply, val_main_cst_2_apply, val_main_v10_apply,
    val_main_v9_apply, val_main_cst_1_apply, val_main_v8_apply, val_main_v7_apply, val_main_cst_0_apply,
    val_main_v6_apply, val_main_v5_apply, val_main_cst_apply, val_main_v4_apply, val_main_v3_apply, score_eq]
  simp only [Ideal.hostUnary_exp_def, Ideal.hostNegf_def, Ideal.negf_def, Ideal.mulf_def, Ideal.addf_def,
    Ideal.hostDivf_def, Ideal.ofBits_def, one_f32]
  rfl

end Cert.GaussAdj.Ref

end
-- ==== Proof.Project.lean ====
/-
  The first launch: per batch, the feature rows projected by each of the two weight matrices.

  Grid point `t` (one per batch) reads batch `t` of the features — a block of one batch, all 2048 rows, all 256 columns —
  and each weight matrix whole, and writes batch `t` of each projection. On the extended reals the roundings to the
  narrower format are the identity and the matrix unit's product into a zero accumulator is the plain sum over the feature
  axis, so the block a point writes is the block of `GaussAdj.projArr` of the arrays as the launch finds them, and since the
  eight batches cover the array, each projection ends as `projArr` whole.
-/
import proofs.«100648_j11467562680485_1_alg».proof.Proof.Gen.KernelIdeal.Frame
import proofs.«100648_j11467562680485_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.GaussAdj.Project

open Idealize.ShloMosaic Idealize.ShloMosaic.TcCoe Idealize.ShloMosaic.ValueIdx Idealize.SL.Sem
open Idealize.ShloMosaic.Pipeline (Dat)
open Cert.KernelIdeal Cert.KernelIdeal.Gen Cert.GaussAdj

/-- The matrix unit's dimension numbers in this launch: rows of the left operand against rows of the right. -/
abbrev D : DotDims S2048x256 S256x256 S2048x256 := dot_S2048x256_S256x256_S2048x256_1_1_0_0_n_n

theorem D_lhs_row (j : S2048x256.Idx) (q : D.contr.Idx) : (D.lhsIdx j q 0).val = (j 0).val := by
  unfold DotDims.lhsIdx
  rw [dif_neg (show ¬(0 : Fin S2048x256.rank) ∈ D.lhsBatch by decide), dif_pos (show (0 : Fin S2048x256.rank) ∈ D.lhsNonContracting by decide)]
  rfl
theorem D_lhs_col (j : S2048x256.Idx) (q : D.contr.Idx) : (D.lhsIdx j q 1).val = (q ⟨0, by decide⟩).val :=
  D.lhsIdx_val_of_single rfl j q
theorem D_rhs_row (j : S2048x256.Idx) (q : D.contr.Idx) : (D.rhsIdx j q 0).val = (j 1).val := by
  unfold DotDims.rhsIdx
  rw [dif_neg (show ¬(0 : Fin S256x256.rank) ∈ D.rhsBatch by decide), dif_pos (show (0 : Fin S256x256.rank) ∈ D.rhsNonContracting by decide)]
  rfl
theorem D_rhs_col (j : S2048x256.Idx) (q : D.contr.Idx) : (D.rhsIdx j q 1).val = (q ⟨0, by decide⟩).val :=
  D.rhsIdx_val_of_single rfl j q

/-- The product into a zero accumulator, entry `(n, o)`: row `n` of the left operand against row `o` of the right. -/
theorem rows_product (l : FVec Ideal S2048x256 .bf16) (r : FVec Ideal S256x256 .bf16) (n : Fin 2048) (o : Fin 256) :
    matmul D none l r (constant S2048x256 .f32 0x00000000#32) (ix2 n o) = ∑ f : Fin 256, l (ix2 n f) * r (ix2 o f) := by
  simp only [matmul]
  rw [Ideal.matmul_constant_zero_apply, ← Equiv.sum_comp (contrEquiv1 D 256 rfl rfl).symm]
  refine Finset.sum_congr rfl fun f _ => ?_
  have hf := contrEquiv1_symm_val D 256 rfl rfl f
  have el : D.lhsIdx (ix2 n o) ((contrEquiv1 D 256 rfl rfl).symm f) = ix2 n f := funext fun a => Fin.ext (by
    match a with
    | ⟨0, _⟩ => exact D_lhs_row _ _
    | ⟨1, _⟩ => exact (D_lhs_col _ _).trans hf)
  have er : D.rhsIdx (ix2 n o) ((contrEquiv1 D 256 rfl rfl).symm f) = ix2 o f := funext fun a => Fin.ext (by
    match a with
    | ⟨0, _⟩ => exact D_rhs_row _ _
    | ⟨1, _⟩ => exact (D_rhs_col _ _).trans hf)
  rw [el, er]

/-- What a point stores for the first projection, entry `(·, n, o)` of its block: row `n` of the feature block against
    row `o` of the weights. -/
theorem stored_first (x : Vec Ideal S1x2048x256 .f32) (w : Vec Ideal S256x256 .f32) (u : Fin 1) (n : Fin 2048) (o : Fin 256) :
    k0_pay2 (F := Ideal) x w (ix3 u n o) = ∑ f : Fin 256, x (ix3 (0 : Fin 1) n f) * w (ix2 o f) := by
  unfold k0_pay2 k0_pay1
  refine (shapeCast_ab_1ab_apply _ _ u n o).trans ?_
  refine (rows_product _ _ n o).trans ?_
  refine Finset.sum_congr rfl fun f _ => ?_
  exact congrArg (· * w (ix2 o f)) (shapeCast_1ab_ab_apply x _ n f)

/-- The same for the second projection. -/
theorem stored_second (x : Vec Ideal S1x2048x256 .f32) (w : Vec Ideal S256x256 .f32) (u : Fin 1) (n : Fin 2048) (o : Fin 256) :
    k0_pay3 (F := Ideal) x w (ix3 u n o) = ∑ f : Fin 256, x (ix3 (0 : Fin 1) n f) * w (ix2 o f) := by
  unfold k0_pay3 k0_pay1
  refine (shapeCast_ab_1ab_apply _ _ u n o).trans ?_
  refine (rows_product _ _ n o).trans ?_
  refine Finset.sum_congr rfl fun f _ => ?_
  exact congrArg (· * w (ix2 o f)) (shapeCast_1ab_ab_apply x _ n f)

/-! ## Which block each window shows a point -/

variable (V : (c : Dev nD) → (b : Ref sig .tc) → Buf (Elt Ideal) ((c : Thread nD τ).loc b))

theorem zero3 : (![0, 0, 0] : Fin 3 → Nat) = fun _ => 0 := funext fun a => by fin_cases a <;> rfl
theorem zero2 : (![0, 0] : Fin 2 → Nat) = fun _ => 0 := funext fun a => by fin_cases a <;> rfl

/-- Point `t` sees batch `t` of the features and of both projections (block `(t, 0, 0)`) and block `(0, 0)` of each
    weight matrix: the printed index maps, decided over the eight points. -/
theorem batch_blocks : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The feature block at point `t` is batch `t`: entry `y` of the block is the array's entry with batch coordinate `t`
    and `y`'s row and column. -/
theorem feat_block (c : Dev nD) (t : Fin cfg0.N) (y : S1x2048x256.Idx) (k : Feat.Idx)
    (h0 : (k 0).val = t.val) (h1 : (k 1).val = (y 1).val) (h2 : (k 2).val = (y 2).val) :
    (iblk0 V c 0 t : Vec Ideal S1x2048x256 .f32) y = (V c main_arg0 : Feat.Idx → EReal) k := by
  obtain ⟨e0, e1, e2, -⟩ := batch_blocks t
  have hy : (y 0).val < 1 := (y 0).isLt
  unfold iblk0
  rw [View.read_apply]
  show V c main_arg0 _ = V c main_arg0 _
  congr 1
  funext a
  apply Fin.ext
  match a with
  | ⟨0, _⟩ => show win0_0.index t (0 : Fin 3) * 1 + 1 * (y 0).val = (k 0).val; omega
  | ⟨1, _⟩ => show win0_0.index t (1 : Fin 3) * 2048 + 1 * (y 1).val = (k 1).val; omega
  | ⟨2, _⟩ => show win0_0.index t (2 : Fin 3) * 256 + 1 * (y 2).val = (k 2).val; omega

/-- The first weight block at every point is the whole matrix. -/
theorem first_weights (c : Dev nD) (t : Fin cfg0.N) (y : S256x256.Idx) :
    (iblk0 V c 1 t : Vec Ideal S256x256 .f32) y = (V c main_arg2 : Wt.Idx → EReal) y := by
  obtain ⟨-, -, -, e0, e1, -⟩ := batch_blocks t
  unfold iblk0
  rw [View.read_apply]
  show V c main_arg2 _ = V c main_arg2 _
  congr 1
  funext a
  apply Fin.ext
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- So is the second. -/
theorem second_weights (c : Dev nD) (t : Fin cfg0.N) (y : S256x256.Idx) :
    (iblk0 V c 2 t : Vec Ideal S256x256 .f32) y = (V c main_arg3 : Wt.Idx → EReal) y := by
  obtain ⟨-, -, -, -, -, e0, e1, -⟩ := batch_blocks t
  unfold iblk0
  rw [View.read_apply]
  show V c main_arg3 _ = V c main_arg3 _
  congr 1
  funext a
  apply Fin.ext
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- An entry of the projection named by its three coordinates. -/
theorem projArr_at (v : Feat.Idx → EReal) (W : Wt.Idx → EReal) (k : Feat.Idx) (b : Fin 8) (n : Fin 2048) (o : Fin 256)
    (h0 : (k 0).val = b.val) (h1 : (k 1).val = n.val) (h2 : (k 2).val = o.val) : projArr v W k = proj v W b n o := by
  have e : k = ix3 b n o := funext fun a => Fin.ext (by
    match a with
    | ⟨0, _⟩ => exact h0
    | ⟨1, _⟩ => exact h1
    | ⟨2, _⟩ => exact h2)
  rw [e]; rfl

/-! ## What a point writes back, and the arrays after the launch -/

/-- Point `t` writes back batch `t` of the first projection of the arrays as the launch finds them. -/
theorem first_flushed (c : Dev nD) (t : Fin cfg0.N) :
    (dat0 V c).flushed 3 t = ((cfg0.win 3).blk t).view.read (Elt Ideal)
      (projArr (V c main_arg0 : Feat.Idx → EReal) (V c main_arg2 : Wt.Idx → EReal)) := by
  have ht : t.val < 8 := lt_of_lt_of_eq t.isLt (show cfg0.N = 8 from N_0)
  obtain ⟨-, -, -, -, -, -, -, e0, e1, e2, -⟩ := batch_blocks t
  show (cfg0.win 3).cut (grid0.coords t) ((dat0 V c).after 3 t) = _
  rw [after0_3]
  unfold out0_3
  rw [View.canon_unit_zero zero3]
  simp only [View.ld_unit_zero (S := S1x2048x256) zero3, View.ld_unit_zero (S := S256x256) zero2]
  funext j
  obtain ⟨u, n, o, rfl⟩ : ∃ (u : Fin 1) (n : Fin 2048) (o : Fin 256), j = ix3 u n o := ⟨j 0, j 1, j 2, eq_ix3 j⟩
  have hu : u.val < 1 := u.isLt
  show k0_pay2 (iblk0 V c 0 t) (iblk0 V c 1 t) (ix3 u n o) = projArr _ _ (((cfg0.win 3).blk t).view.emb (ix3 u n o))
  refine ((stored_first (iblk0 V c 0 t) (iblk0 V c 1 t) u n o).trans ?_).trans
    (projArr_at _ _ _ ⟨t.val, ht⟩ n o ?_ ?_ ?_).symm
  · unfold proj
    refine Finset.sum_congr rfl fun f _ => ?_
    rw [feat_block V c t (ix3 (0 : Fin 1) n f) (ix3 ⟨t.val, ht⟩ n f) rfl rfl rfl, first_weights V c t (ix2 o f)]
  · show win0_3.index t (0 : Fin 3) * 1 + 1 * u.val = t.val; omega
  · show win0_3.index t (1 : Fin 3) * 2048 + 1 * n.val = n.val; omega
  · show win0_3.index t (2 : Fin 3) * 256 + 1 * o.val = o.val; omega

/-- Point `t` writes back batch `t` of the second projection. -/
theorem second_flushed (c : Dev nD) (t : Fin cfg0.N) :
    (dat0 V c).flushed 4 t = ((cfg0.win 4).blk t).view.read (Elt Ideal)
      (projArr (V c main_arg0 : Feat.Idx → EReal) (V c main_arg3 : Wt.Idx → EReal)) := by
  have ht : t.val < 8 := lt_of_lt_of_eq t.isLt (show cfg0.N = 8 from N_0)
  obtain ⟨-, -, -, -, -, -, -, -, -, -, e0, e1, e2⟩ := batch_blocks t
  show (cfg0.win 4).cut (grid0.coords t) ((dat0 V c).after 4 t) = _
  rw [after0_4]
  unfold out0_4
  rw [View.canon_unit_zero zero3]
  simp only [View.ld_unit_zero (S := S1x2048x256) zero3, View.ld_unit_zero (S := S256x256) zero2]
  funext j
  obtain ⟨u, n, o, rfl⟩ : ∃ (u : Fin 1) (n : Fin 2048) (o : Fin 256), j = ix3 u n o := ⟨j 0, j 1, j 2, eq_ix3 j⟩
  have hu : u.val < 1 := u.isLt
  show k0_pay3 (iblk0 V c 0 t) (iblk0 V c 2 t) (ix3 u n o) = projArr _ _ (((cfg0.win 4).blk t).view.emb (ix3 u n o))
  refine ((stored_second (iblk0 V c 0 t) (iblk0 V c 2 t) u n o).trans ?_).trans
    (projArr_at _ _ _ ⟨t.val, ht⟩ n o ?_ ?_ ?_).symm
  · unfold proj
    refine Finset.sum_congr rfl fun f _ => ?_
    rw [feat_block V c t (ix3 (0 : Fin 1) n f) (ix3 ⟨t.val, ht⟩ n f) rfl rfl rfl, second_weights V c t (ix2 o f)]
  · show win0_4.index t (0 : Fin 3) * 1 + 1 * u.val = t.val; omega
  · show win0_4.index t (1 : Fin 3) * 2048 + 1 * n.val = n.val; omega
  · show win0_4.index t (2 : Fin 3) * 256 + 1 * o.val = o.val; omega

/-- An entry of a projection array lies in point `t`'s block iff each coordinate is in the block's range. -/
theorem mem_first (t : Fin cfg0.N) (i : Feat.Idx) :
    i ∈ ((cfg0.win 3).blk t).view.set ↔ ∀ a : Fin 3, win0_3.index t a * S1x2048x256.size a ≤ (i a).val ∧ (i a).val < win0_3.index t a * S1x2048x256.size a + S1x2048x256.size a := by
  show i ∈ ((View.whole main_v0_0).slice (win0_3.rect t)).set ↔ _
  rw [View.set_slice_whole, Rect.mem_set_unit]
  exact Iff.rfl

theorem mem_second (t : Fin cfg0.N) (i : Feat.Idx) :
    i ∈ ((cfg0.win 4).blk t).view.set ↔ ∀ a : Fin 3, win0_4.index t a * S1x2048x256.size a ≤ (i a).val ∧ (i a).val < win0_4.index t a * S1x2048x256.size a + S1x2048x256.size a := by
  show i ∈ ((View.whole main_v0_1).slice (win0_4.rect t)).set ↔ _
  rw [View.set_slice_whole, Rect.mem_set_unit]
  exact Iff.rfl

/-- Every entry of the first projection is in its batch's block: the eight blocks cover the array. -/
theorem first_cover (i : Feat.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 256 := (i 2).isLt
  obtain ⟨t, ht⟩ : ∃ t : Fin cfg0.N, t.val = (i 0).val := ⟨⟨(i 0).val, by rw [show cfg0.N = 8 from N_0]; exact hi0⟩, rfl⟩
  obtain ⟨-, -, -, -, -, -, -, e0, e1, e2, -⟩ := batch_blocks t
  refine ⟨t, flush0_3 t, ?_⟩
  rw [mem_first]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 256 ≤ (i 2).val ∧ (i 2).val < win0_3.index t (2 : Fin 3) * 256 + 256; omega

theorem second_cover (i : Feat.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 256 := (i 2).isLt
  obtain ⟨t, ht⟩ : ∃ t : Fin cfg0.N, t.val = (i 0).val := ⟨⟨(i 0).val, by rw [show cfg0.N = 8 from N_0]; exact hi0⟩, rfl⟩
  obtain ⟨-, -, -, -, -, -, -, -, -, -, e0, e1, e2⟩ := batch_blocks t
  refine ⟨t, flush0_4 t, ?_⟩
  rw [mem_second]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 256 ≤ (i 2).val ∧ (i 2).val < win0_4.index t (2 : Fin 3) * 256 + 256; omega

/-- After the launch the first projection's array is `projArr` of the features and the first weights as the launch found them; -/
theorem first_final (c : Dev nD) :
    (dat0 V c).arrAt 3 cfg0.N = projArr (V c main_arg0 : Feat.Idx → EReal) (V c main_arg2 : Wt.Idx → EReal) :=
  (dat0 V c).arrAt_eq_of_cover 3 _ (fun t _ => first_flushed V c t) first_cover

/-- and the second's of the features and the second weights. -/
theorem second_final (c : Dev nD) :
    (dat0 V c).arrAt 4 cfg0.N = projArr (V c main_arg0 : Feat.Idx → EReal) (V c main_arg3 : Wt.Idx → EReal) :=
  (dat0 V c).arrAt_eq_of_cover 4 _ (fun t _ => second_flushed V c t) second_cover

end Cert.GaussAdj.Project

end
-- ==== Proof.Adjacency.lean ====
/-
  The second launch: every 1024 × 1024 tile of a batch's pairwise distances reweighted by the scores of its rows.

  Grid point `(b, p, q)` reads rows `1024p …` of batch `b` of the first projection, rows `1024q …` of batch `b` of the second, and
  tile `(p, q)` of batch `b` of the distances, and writes tile `(p, q)` of batch `b` of the result. On the extended reals the
  matrix unit's product into a zero accumulator is the inner product of a row of one block with a row of the other, and the
  rest of the body acts entry by entry: the logistic function, a scale and a shift give the width, and the distance squared
  times one over twice the width squared, subtracted from zero and exponentiated, gives the weight. Subtracting from zero is
  negation, so the tile a point writes is the tile of `GaussAdj.normAdj` of the arrays as the launch finds them; the 32 tiles
  cover the array.
-/
import proofs.«100648_j11467562680485_1_alg».proof.Proof.Gen.KernelIdeal.Frame
import proofs.«100648_j11467562680485_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.GaussAdj.Adjacency

open Idealize.ShloMosaic Idealize.ShloMosaic.TcCoe Idealize.ShloMosaic.ValueIdx Idealize.SL.Sem
open Idealize.ShloMosaic.Pipeline (Dat)
open Cert.KernelIdeal Cert.KernelIdeal.Gen Cert.GaussAdj

/-- The matrix unit's dimension numbers in this launch: rows of the left block against rows of the right block. -/
abbrev D : DotDims S1024x256 S1024x256 S1024x1024 := dot_S1024x256_S1024x256_S1024x1024_1_1_0_0_n_n

theorem D_lhs_row (j : S1024x1024.Idx) (q : D.contr.Idx) : (D.lhsIdx j q 0).val = (j 0).val := by
  unfold DotDims.lhsIdx
  rw [dif_neg (show ¬(0 : Fin S1024x256.rank) ∈ D.lhsBatch by decide), dif_pos (show (0 : Fin S1024x256.rank) ∈ D.lhsNonContracting by decide)]
  rfl
theorem D_lhs_col (j : S1024x1024.Idx) (q : D.contr.Idx) : (D.lhsIdx j q 1).val = (q ⟨0, by decide⟩).val :=
  D.lhsIdx_val_of_single rfl j q
theorem D_rhs_row (j : S1024x1024.Idx) (q : D.contr.Idx) : (D.rhsIdx j q 0).val = (j 1).val := by
  unfold DotDims.rhsIdx
  rw [dif_neg (show ¬(0 : Fin S1024x256.rank) ∈ D.rhsBatch by decide), dif_pos (show (0 : Fin S1024x256.rank) ∈ D.rhsNonContracting by decide)]
  rfl
theorem D_rhs_col (j : S1024x1024.Idx) (q : D.contr.Idx) : (D.rhsIdx j q 1).val = (q ⟨0, by decide⟩).val :=
  D.rhsIdx_val_of_single rfl j q

/-- The product into a zero accumulator, entry `(r, s)`: row `r` of the left block against row `s` of the right. -/
theorem rows_product (l r : FVec Ideal S1024x256 .bf16) (n m : Fin 1024) :
    matmul D none l r (constant S1024x1024 .f32 0x00000000#32) (ix2 n m) = ∑ o : Fin 256, l (ix2 n o) * r (ix2 m o) := by
  simp only [matmul]
  rw [Ideal.matmul_constant_zero_apply, ← Equiv.sum_comp (contrEquiv1 D 256 rfl rfl).symm]
  refine Finset.sum_congr rfl fun o _ => ?_
  have ho := contrEquiv1_symm_val D 256 rfl rfl o
  have el : D.lhsIdx (ix2 n m) ((contrEquiv1 D 256 rfl rfl).symm o) = ix2 n o := funext fun a => Fin.ext (by
    match a with
    | ⟨0, _⟩ => exact D_lhs_row _ _
    | ⟨1, _⟩ => exact (D_lhs_col _ _).trans ho)
  have er : D.rhsIdx (ix2 n m) ((contrEquiv1 D 256 rfl rfl).symm o) = ix2 m o := funext fun a => Fin.ext (by
    match a with
    | ⟨0, _⟩ => exact D_rhs_row _ _
    | ⟨1, _⟩ => exact (D_rhs_col _ _).trans ho)
  rw [el, er]

/-- What a point stores, entry `(·, n, m)` of its tile: the weight of the distance there under the score of row `n` of
    the left block and row `m` of the right. -/
theorem stored_weight (x0 x1 : Vec Ideal S1x1024x256 .bf16) (x2 : Vec Ideal S1x1024x1024 .f32) (u : Fin 1) (n m : Fin 1024) :
    k1_pay1 (F := Ideal) x0 x1 x2 (ix3 u n m)
      = weight (∑ o : Fin 256, x0 (ix3 (0 : Fin 1) n o) * x1 (ix3 (0 : Fin 1) m o)) (x2 (ix3 (0 : Fin 1) n m)) := by
  unfold k1_pay1
  refine (shapeCast_ab_1ab_apply _ _ u n m).trans ?_
  unfold weight width
  simp only [exp, subf, mulf, divf, addf, logistic, broadcast, Ideal.exp_def, Ideal.subf_def, Ideal.mulf_def, Ideal.divf_def,
    Ideal.addf_def, Ideal.logistic_def, Ideal.ofBits_def, Ideal.ofBits_zero_f32, zero_sub', one_f32]
  rw [rows_product, shapeCast_1ab_ab_apply x2 _ n m]
  simp only [shapeCast_1ab_ab_apply]

/-! ## Which block each window shows a point -/

variable (V : (c : Dev nD) → (b : Ref sig .tc) → Buf (Elt Ideal) ((c : Thread nD τ).loc b))

theorem zero3 : (![0, 0, 0] : Fin 3 → Nat) = fun _ => 0 := funext fun a => by fin_cases a <;> rfl

/-- The printed index maps, decided over the 32 points, relative to the output tile `(b, p, q)` of the point: the left
    rows are block `(b, p, 0)` of the first projection, the right rows block `(b, q, 0)` of the second, the distances tile
    `(b, p, q)`; and the tile's coordinates stay in range. -/
theorem tile_blocks : ∀ t : Fin cfg1.N,
    win1_0.index t (0 : Fin 3) = win1_3.index t (0 : Fin 3) ∧ win1_0.index t (1 : Fin 3) = win1_3.index t (1 : Fin 3) ∧ win1_0.index t (2 : Fin 3) = 0
    ∧ win1_1.index t (0 : Fin 3) = win1_3.index t (0 : Fin 3) ∧ win1_1.index t (1 : Fin 3) = win1_3.index t (2 : Fin 3) ∧ win1_1.index t (2 : Fin 3) = 0
    ∧ win1_2.index t (0 : Fin 3) = win1_3.index t (0 : Fin 3) ∧ win1_2.index t (1 : Fin 3) = win1_3.index t (1 : Fin 3) ∧ win1_2.index t (2 : Fin 3) = win1_3.index t (2 : Fin 3)
    ∧ win1_3.index t (0 : Fin 3) < 8 ∧ win1_3.index t (1 : Fin 3) < 2 ∧ win1_3.index t (2 : Fin 3) < 2 :=
  (by decide +kernel : ∀ t : Fin grid1.N, _)

/-- Every tile is some point's. -/
theorem tile_onto : ∀ (b : Fin 8) (p q : Fin 2), ∃ t : Fin cfg1.N, win1_3.index t = ![b.val, p.val, q.val] :=
  (by decide +kernel : ∀ (b : Fin 8) (p q : Fin 2), ∃ t : Fin grid1.N, win1_3.index t = ![b.val, p.val, q.val])

/-- The left block at a point whose tile is `(b, p, q)`: rows `1024p …` of batch `b` of the first projection. -/
theorem left_block (c : Dev nD) (t : Fin cfg1.N) (y : S1x1024x256.Idx) (k : Feat.Idx)
    (h0 : (k 0).val = win1_3.index t (0 : Fin 3)) (h1 : (k 1).val = win1_3.index t (1 : Fin 3) * 1024 + (y 1).val) (h2 : (k 2).val = (y 2).val) :
    (iblk1 V c 0 t : Vec Ideal S1x1024x256 .bf16) y = (V c main_v0_0 : Feat.Idx → EReal) k := by
  obtain ⟨e0, e1, e2, -⟩ := tile_blocks t
  have hy : (y 0).val < 1 := (y 0).isLt
  unfold iblk1
  rw [View.read_apply]
  show V c main_v0_0 _ = V c main_v0_0 _
  congr 1
  funext a
  apply Fin.ext
  match a with
  | ⟨0, _⟩ => show win1_0.index t (0 : Fin 3) * 1 + 1 * (y 0).val = (k 0).val; omega
  | ⟨1, _⟩ => show win1_0.index t (1 : Fin 3) * 1024 + 1 * (y 1).val = (k 1).val; omega
  | ⟨2, _⟩ => show win1_0.index t (2 : Fin 3) * 256 + 1 * (y 2).val = (k 2).val; omega

/-- The right block: rows `1024q …` of batch `b` of the second projection. -/
theorem right_block (c : Dev nD) (t : Fin cfg1.N) (y : S1x1024x256.Idx) (k : Feat.Idx)
    (h0 : (k 0).val = win1_3.index t (0 : Fin 3)) (h1 : (k 1).val = win1_3.index t (2 : Fin 3) * 1024 + (y 1).val) (h2 : (k 2).val = (y 2).val) :
    (iblk1 V c 1 t : Vec Ideal S1x1024x256 .bf16) y = (V c main_v0_1 : Feat.Idx → EReal) k := by
  obtain ⟨-, -, -, e0, e1, e2, -⟩ := tile_blocks t
  have hy : (y 0).val < 1 := (y 0).isLt
  unfold iblk1
  rw [View.read_apply]
  show V c main_v0_1 _ = V c main_v0_1 _
  congr 1
  funext a
  apply Fin.ext
  match a with
  | ⟨0, _⟩ => show win1_1.index t (0 : Fin 3) * 1 + 1 * (y 0).val = (k 0).val; omega
  | ⟨1, _⟩ => show win1_1.index t (1 : Fin 3) * 1024 + 1 * (y 1).val = (k 1).val; omega
  | ⟨2, _⟩ => show win1_1.index t (2 : Fin 3) * 256 + 1 * (y 2).val = (k 2).val; omega

/-- The distance block: tile `(p, q)` of batch `b`. -/
theorem dist_block (c : Dev nD) (t : Fin cfg1.N) (y : S1x1024x1024.Idx) (k : Pair.Idx)
    (h0 : (k 0).val = win1_3.index t (0 : Fin 3)) (h1 : (k 1).val = win1_3.index t (1 : Fin 3) * 1024 + (y 1).val)
    (h2 : (k 2).val = win1_3.index t (2 : Fin 3) * 1024 + (y 2).val) :
    (iblk1 V c 2 t : Vec Ideal S1x1024x1024 .f32) y = (V c main_arg1 : Pair.Idx → EReal) k := by
  obtain ⟨-, -, -, -, -, -, e0, e1, e2, -⟩ := tile_blocks t
  have hy : (y 0).val < 1 := (y 0).isLt
  unfold iblk1
  rw [View.read_apply]
  show V c main_arg1 _ = V c main_arg1 _
  congr 1
  funext a
  apply Fin.ext
  match a with
  | ⟨0, _⟩ => show win1_2.index t (0 : Fin 3) * 1 + 1 * (y 0).val = (k 0).val; omega
  | ⟨1, _⟩ => show win1_2.index t (1 : Fin 3) * 1024 + 1 * (y 1).val = (k 1).val; omega
  | ⟨2, _⟩ => show win1_2.index t (2 : Fin 3) * 1024 + 1 * (y 2).val = (k 2).val; omega

/-- An entry of the reweighted distances named by its three coordinates. -/
theorem normAdj_at (p q : Feat.Idx → EReal) (adj : Pair.Idx → EReal) (k : Pair.Idx) (b : Fin 8) (n m : Fin 2048)
    (h0 : (k 0).val = b.val) (h1 : (k 1).val = n.val) (h2 : (k 2).val = m.val) :
    normAdj p q adj k = weight (score p q b n m) (adj (ix3 b n m)) := by
  have e : k = ix3 b n m := funext fun a => Fin.ext (by
    match a with
    | ⟨0, _⟩ => exact h0
    | ⟨1, _⟩ => exact h1
    | ⟨2, _⟩ => exact h2)
  rw [e]; rfl

/-! ## What a point writes back, and the array after the launch -/

/-- A point writes back its tile of the reweighted distances of the arrays as the launch finds them. -/
theorem tile_flushed (c : Dev nD) (t : Fin cfg1.N) :
    (dat1 V c).flushed 3 t = ((cfg1.win 3).blk t).view.read (Elt Ideal)
      (normAdj (V c main_v0_0 : Feat.Idx → EReal) (V c main_v0_1 : Feat.Idx → EReal) (V c main_arg1 : Pair.Idx → EReal)) := by
  obtain ⟨-, -, -, -, -, -, -, -, -, b0, b1, b2⟩ := tile_blocks t
  show (cfg1.win 3).cut (grid1.coords t) ((dat1 V c).after 3 t) = _
  rw [after1_3]
  unfold out1_3
  rw [View.canon_unit_zero zero3]
  simp only [View.ld_unit_zero (S := S1x1024x256) zero3, View.ld_unit_zero (S := S1x1024x1024) zero3]
  funext j
  obtain ⟨u, n, m, rfl⟩ : ∃ (u : Fin 1) (n m : Fin 1024), j = ix3 u n m := ⟨j 0, j 1, j 2, eq_ix3 j⟩
  have hu : u.val < 1 := u.isLt
  have hn : n.val < 1024 := n.isLt
  have hm : m.val < 1024 := m.isLt
  show k1_pay1 (iblk1 V c 0 t) (iblk1 V c 1 t) (iblk1 V c 2 t) (ix3 u n m) = normAdj _ _ _ (((cfg1.win 3).blk t).view.emb (ix3 u n m))
  refine ((stored_weight (iblk1 V c 0 t) (iblk1 V c 1 t) (iblk1 V c 2 t) u n m).trans ?_).trans
    (normAdj_at _ _ _ _ ⟨win1_3.index t (0 : Fin 3), b0⟩ ⟨win1_3.index t (1 : Fin 3) * 1024 + n.val, by omega⟩
      ⟨win1_3.index t (2 : Fin 3) * 1024 + m.val, by omega⟩ ?_ ?_ ?_).symm
  · unfold score
    rw [dist_block V c t (ix3 (0 : Fin 1) n m) (ix3 ⟨win1_3.index t (0 : Fin 3), b0⟩ ⟨win1_3.index t (1 : Fin 3) * 1024 + n.val, by omega⟩
      ⟨win1_3.index t (2 : Fin 3) * 1024 + m.val, by omega⟩) rfl rfl rfl]
    refine congrArg (fun s => weight s _) (Finset.sum_congr rfl fun o _ => ?_)
    rw [left_block V c t (ix3 (0 : Fin 1) n o) (ix3 ⟨win1_3.index t (0 : Fin 3), b0⟩ ⟨win1_3.index t (1 : Fin 3) * 1024 + n.val, by omega⟩ o) rfl rfl rfl,
      right_block V c t (ix3 (0 : Fin 1) m o) (ix3 ⟨win1_3.index t (0 : Fin 3), b0⟩ ⟨win1_3.index t (2 : Fin 3) * 1024 + m.val, by omega⟩ o) rfl rfl rfl]
  · show win1_3.index t (0 : Fin 3) * 1 + 1 * u.val = win1_3.index t (0 : Fin 3); omega
  · show win1_3.index t (1 : Fin 3) * 1024 + 1 * n.val = win1_3.index t (1 : Fin 3) * 1024 + n.val; omega
  · show win1_3.index t (2 : Fin 3) * 1024 + 1 * m.val = win1_3.index t (2 : Fin 3) * 1024 + m.val; omega

/-- An entry of the result array lies in point `t`'s tile iff each coordinate is in the tile's range. -/
theorem mem_tile (t : Fin cfg1.N) (i : Pair.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v1).slice (win1_3.rect t)).set ↔ _
  rw [View.set_slice_whole, Rect.mem_set_unit]
  exact Iff.rfl

/-- Every entry is in the tile of its batch, its row's half and its column's half: the 32 tiles cover the array. -/
theorem tile_cover (i : Pair.Idx) : ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 2048 := (i 2).isLt
  obtain ⟨t, ht⟩ := tile_onto ⟨(i 0).val, hi0⟩ ⟨(i 1).val / 1024, by omega⟩ ⟨(i 2).val / 1024, by omega⟩
  have q0 : win1_3.index t (0 : Fin 3) = (i 0).val := congrFun ht 0
  have q1 : win1_3.index t (1 : Fin 3) = (i 1).val / 1024 := congrFun ht 1
  have q2 : win1_3.index t (2 : Fin 3) = (i 2).val / 1024 := congrFun ht 2
  refine ⟨t, flush1_3 t, ?_⟩
  rw [mem_tile]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 1024 ≤ (i 2).val ∧ (i 2).val < win1_3.index t (2 : Fin 3) * 1024 + 1024; omega

/-- After the launch the result array is the distances reweighted by the scores of the two projections, all three as
    the launch found them. -/
theorem tile_final (c : Dev nD) :
    (dat1 V c).arrAt 3 cfg1.N
      = normAdj (V c main_v0_0 : Feat.Idx → EReal) (V c main_v0_1 : Feat.Idx → EReal) (V c main_arg1 : Pair.Idx → EReal) :=
  (dat1 V c).arrAt_eq_of_cover 3 _ (fun t _ => tile_flushed V c t) tile_cover

end Cert.GaussAdj.Adjacency

end
-- ==== Proof.KernelRun.lean ====
/-
  The two launches composed: what the kernel's result array holds when @main returns.

  The second launch finds the two projections as the first launch left them and the distances as launched (the first
  launch does not touch them), and the first launch finds the features and both weight matrices as launched. So the result
  array ends as `GaussAdj.result` of the four arguments; the arguments themselves end unchanged. Every weakly fair execution
  terminates there: the launch theorem for a program of several kernel regions, over each region's proof data at the
  contents that region is entered with.
-/
import proofs.«100648_j11467562680485_1_alg».proof.Proof.Gen.KernelIdeal.Frame
import proofs.«100648_j11467562680485_1_alg».proof.Proof.Project
import proofs.«100648_j11467562680485_1_alg».proof.Proof.Adjacency

set_option maxRecDepth 16384

noncomputable section

namespace Cert.GaussAdj.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.GaussAdj

local notation "𝕄" => MT nD τ sig Unit (Elt Ideal) ℕ (UR sig nD τ) ℕ

variable (m : (ℓ : Loc nD τ sig) → Buf (Elt Ideal) ℓ) (ρ : Dev nD → PrngReg)

/-- The first projection, as the second launch finds it, is `projArr` of the launched features and first weights. -/
theorem first_proj (c : Dev nD) :
    (V1 m ρ c main_v0_0 : Feat.Idx → EReal)
      = projArr (m ((c : Thread nD τ).loc main_arg0)) (m ((c : Thread nD τ).loc main_arg2)) :=
  (W1_arr m ρ c 3).trans (Project.first_final (V0 m ρ) c)

/-- The second projection likewise, of the launched features and second weights. -/
theorem second_proj (c : Dev nD) :
    (V1 m ρ c main_v0_1 : Feat.Idx → EReal)
      = projArr (m ((c : Thread nD τ).loc main_arg0)) (m ((c : Thread nD τ).loc main_arg3)) :=
  (W1_arr m ρ c 4).trans (Project.second_final (V0 m ρ) c)

/-- The distances reach the second launch as launched: the first launch has no window on them. -/
theorem dist_kept (c : Dev nD) :
    (V1 m ρ c main_arg1 : Pair.Idx → EReal) = m ((c : Thread nD τ).loc main_arg1) :=
  W1_of_ne m ρ c main_arg1 (by decide)

/-- The result array when @main returns: the specification of the four launched arguments. -/
theorem result_final (c : Dev nD) :
    W2 m ρ c (Proc.devRef .tc main_v1)
      = result (m ((c : Thread nD τ).loc main_arg0)) (m ((c : Thread nD τ).loc main_arg1))
          (m ((c : Thread nD τ).loc main_arg2)) (m ((c : Thread nD τ).loc main_arg3)) := by
  refine (W2_arr m ρ c 3).trans ((Adjacency.tile_final (V1 m ρ) c).trans ?_)
  rw [first_proj m ρ c, second_proj m ρ c, dist_kept m ρ c]
  rfl

set_option backward.isDefEq.respectTransparency.types false in
/-- Every weakly fair execution of @main terminates, nothing faulting, with the result array at the specification of the
    launched arguments and the arguments as launched. -/
theorem run : θ_run defs (onTc (τ := τ) (main (F := Ideal))) ⟨m, fun _ => 0, ρ⟩ (fun r => ∀ c : Dev nD,
      r.2.mem ((c.tc : Thread nD τ).loc main_v1)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (result_final m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.GaussAdj.Run

end
-- ==== Proof.lean ====
/-
  Pairwise distances reweighted by a Gaussian whose width the two rows' projected features set, computed by two kernel
  launches, against the same computation spelt with three tensor contractions: equal on the extended reals.

  Both programs compute `GaussAdj.result` (Proof/Spec.lean): with `c1 = v · W1ᵀ` and `c2 = v · W2ᵀ` per batch, the score
  `s[b,n,m] = Σ_o c1[b,n,o] · c2[b,m,o]`, the width `σ(s) · 100 + 1e-5` and the weight `exp (−(adj² · (1 / (2 · width²))))`.
  The kernel projects batch by batch in its first launch and reweights tile by tile in its second (Proof/Project.lean,
  Proof/Adjacency.lean, composed in Proof/KernelRun.lean); the reference's stages are read one at a time
  (Proof/RefSpec.lean). The sums nest the same way on both sides and every shared constant is the same word, so no entry
  needs to be finite; what differs is only spelling — the logistic function written out as a quotient, a negation written
  as a subtraction from zero, a change of float format that is the identity here. The first result of both programs is the
  feature array itself, unchanged.

  The kernel as printed and its reading on the extended reals are the same text (no rewrite was applied), so that claim is
  trivial; each program's termination with its arguments unchanged is its run with the results dropped.
-/
import proofs.«100648_j11467562680485_1_alg».proof.Defs
import proofs.«100648_j11467562680485_1_alg».proof.Proof.Gen.Kernel
import proofs.«100648_j11467562680485_1_alg».proof.Proof.Gen.Kernel.Skeleton
import proofs.«100648_j11467562680485_1_alg».proof.Proof.Gen.Kernel.Launch
import proofs.«100648_j11467562680485_1_alg».proof.Proof.Gen.Kernel.Points
import proofs.«100648_j11467562680485_1_alg».proof.Proof.Gen.Kernel.Frame
import proofs.«100648_j11467562680485_1_alg».proof.Proof.Gen.KernelIdeal
import proofs.«100648_j11467562680485_1_alg».proof.Proof.Gen.KernelIdeal.Skeleton
import proofs.«100648_j11467562680485_1_alg».proof.Proof.Gen.KernelIdeal.Launch
import proofs.«100648_j11467562680485_1_alg».proof.Proof.Gen.KernelIdeal.Points
import proofs.«100648_j11467562680485_1_alg».proof.Proof.Gen.KernelIdeal.Frame
import proofs.«100648_j11467562680485_1_alg».proof.Proof.Gen.ReferenceIdeal
import proofs.«100648_j11467562680485_1_alg».proof.Proof.Gen.Pre_finite_inputs
import proofs.«100648_j11467562680485_1_alg».proof.Proof.Gen.ReferenceIdeal.Run
import proofs.«100648_j11467562680485_1_alg».proof.Proof.Gen.ReferenceIdeal.Read
import proofs.«100648_j11467562680485_1_alg».proof.Proof.RefSpec
import proofs.«100648_j11467562680485_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's run with its results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the features unchanged as first result and `GaussAdj.result` of the arguments as second:
    the kernel by its two launches, the reference by its stages, from memories that agree on the arguments. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.GaussAdj.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c => ⟨(h c).2.1, (h c).1, (h c).2⟩) (Cert.GaussAdj.Run.run m ρ)
  · refine (θ_run Cert.ReferenceIdeal.defs _ _).mono (fun _ h c => ?_) (Cert.ReferenceIdeal.Value.run (F := Ideal) m' ρ')
    obtain ⟨a0, a1, a2, a3⟩ := hagree c
    refine ⟨(h c).1.trans a0, (h c).2.1.trans ?_, (h c).2.2⟩
    refine (Cert.ReferenceIdeal.Read.val_main_v21_eq _ _ _ _).trans ((Cert.GaussAdj.Ref.result_eq _ _ _ _).trans ?_)
    rw [a0, a1, a2, a3]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
